-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S512x256 : Shape := ⟨2, ![512, 256]⟩
abbrev S256 : Shape := ⟨1, ![256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S32768x256 .f32) (main_arg1 : FVec F S32768x256 .f32) (main_arg2 : FVec F S512x256 .f32) (main_arg3 : FVec F S256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S32768x256 : Shape := ⟨2, ![32768, 256]⟩
abbrev S512x256 : Shape := ⟨2, ![512, 256]⟩
abbrev S256 : Shape := ⟨1, ![256]⟩
abbrev S256x256 : Shape := ⟨2, ![256, 256]⟩
abbrev S1x256 : Shape := ⟨2, ![1, 256]⟩
abbrev S1024x256 : Shape := ⟨2, ![1024, 256]⟩

abbrev nBuf : Space → Nat
  | .hbm => 8
  | .vmem => 9
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S1x256, .f32⟩
  | .hbm, ⟨7, _⟩ => ⟨S32768x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S1024x256, .f32⟩
  | .local _ .vmem, ⟨8, _⟩ => ⟨S1024x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S512x256_S256x256_0_0 : S512x256.Slices ![0, 0] S256x256
  slices_S512x256_S256x256_256_0 : S512x256.Slices ![256, 0] S256x256
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S32768x256.size a
  hwx0_1 : ∀ i : grid0.Coords, EltTy.bits .f32 = 32 ∨ (Rect.block (s := S32768x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S32768x256.size a
  hwx0_5 : ∀ i : grid0.Coords, EltTy.bits .f32 = 32 ∨ (Rect.block (s := S32768x256) S1024x256.size (cc0_transform_5 i) (hinb0_5 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x256 : Shape := ⟨2, ![32768, 256]⟩
abbrev S512x256 : Shape := ⟨2, ![512, 256]⟩
abbrev S256 : Shape := ⟨1, ![256]⟩
abbrev S32768x512 : Shape := ⟨2, ![32768, 512]⟩
abbrev S1x256 : Shape := ⟨2, ![1, 256]⟩

abbrev nBuf : Space → Nat
  | .hbm => 9
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S512x256, .f32⟩
  | .hbm, ⟨3, _⟩ => ⟨S256, .f32⟩
  | .hbm, ⟨4, _⟩ => ⟨S32768x512, .f32⟩
  | .hbm, ⟨5, _⟩ => ⟨S32768x256, .f32⟩
  | .hbm, ⟨6, _⟩ => ⟨S1x256, .f32⟩
  | .hbm, ⟨7, _⟩ => ⟨S32768x256, .f32⟩
  | .hbm, ⟨8, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  concatenates_S32768x256_S32768x256_S32768x512_d1 : Shape.Concatenates [S32768x256, S32768x256] S32768x512 1
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  dot_S32768x512_S512x256_S32768x256_1_0_0_1_n_n_wf : DotDims.WF S32768x512 S512x256 S32768x256 [1] [0] [0] [1] [] []

variable [Facts₀]

def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf

class Facts : Prop extends Facts₀ where

variable [Facts]
-- ==== Proof.Projection.lean ====
/-
  The value both programs compute: a linear projection of two blocks of columns laid side by side.
  For `x₁, x₂ : [32768, 256]`, weights `W : [512, 256]` and a bias `b : [256]`,

      out[r, c] = (∑_{k < 256} x₁[r, k] · W[k, c]  +  ∑_{k < 256} x₂[r, k] · W[256 + k, c])  +  b[c]

  over the extended reals.  One program contracts the 512 columns of the joined rows `[x₁ | x₂]` against all of `W`;
  the other contracts `x₁` against the upper half of `W`, `x₂` against the lower half, and adds.  They meet because a
  sum over 512 positions is the sum over the first 256 plus the sum over the last 256.  That uses only that addition
  is commutative and associative, which holds on the extended reals with infinite terms too: no distributivity, no
  cancellation, and so no finiteness of the inputs is used anywhere.
-/
import Idealize.ShloMosaic.PureOps.Ideal
import Idealize.ShloMosaic.Lib.ValueIdx

noncomputable section

namespace Cert.Projection

open Idealize.ShloMosaic Idealize.ShloMosaic.ValueIdx

/-- Row `k` of the upper half of the weights is row `k` of the weights. -/
abbrev upper (k : Fin 256) : Fin 512 := ⟨k.val, Nat.lt_of_lt_of_le k.isLt (by decide)⟩

/-- Row `k` of the lower half of the weights is row `256 + k` of the weights. -/
abbrev lower (k : Fin 256) : Fin 512 := ⟨256 + k.val, by have := k.isLt; omega⟩

/-- A sum over 512 positions is the sum over the first 256 plus the sum over the last 256, in any commutative
    monoid. -/
theorem sum_halves {M : Type*} [AddCommMonoid M] (f : Fin 512 → M) :
    ∑ k : Fin 512, f k = (∑ k : Fin 256, f (upper k)) + ∑ k : Fin 256, f (lower k) :=
  Fin.sum_univ_add (a := 256) (b := 256) f

/-- The projection at row `i 0` and column `i 1`. -/
def out (x₁ x₂ : (⟨2, ![32768, 256]⟩ : Shape).Idx → EReal) (W : (⟨2, ![512, 256]⟩ : Shape).Idx → EReal)
    (b : (⟨1, ![256]⟩ : Shape).Idx → EReal) : (⟨2, ![32768, 256]⟩ : Shape).Idx → EReal := fun i =>
  ((∑ k : Fin 256, x₁ (ix2 (i 0) k) * W (ix2 (upper k) (i 1)))
    + ∑ k : Fin 256, x₂ (ix2 (i 0) k) * W (ix2 (lower k) (i 1))) + b (ix1 (i 1))

end Cert.Projection

end
-- ==== Proof.JoinedRows.lean ====
/-
  The reference reads as the projection of `Projection.out`.

  The reference lays the rows of `x₁` and `x₂` side by side into rows of 512 entries, contracts them against the 512
  rows of the weights, and adds the bias along every row.  Entry `k` of a joined row is `x₁[r, k]` for `k < 256` and
  `x₂[r, k - 256]` from there on, so the contraction over 512 positions, cut into its two halves
  (`Projection.sum_halves`), is the sum of `x₁` against the upper half of the weights and of `x₂` against the lower half.
-/
import proofs.«130457_g16767552323709_cont_7to1_568_2_alg».proof.Proof.Gen.ReferenceIdeal.Read
import proofs.«130457_g16767552323709_cont_7to1_568_2_alg».proof.Proof.Projection
import Idealize.ShloMosaic.Lib.Pipeline.Value

noncomputable section

namespace Cert.JoinedRows

open Cert.ReferenceIdeal Cert.ReferenceIdeal.Read Cert.Projection
open Idealize.ShloMosaic Idealize.ShloMosaic.ValueIdx

/-- In its first 256 columns a joined row holds the row of `x₁`. -/
theorem joined_upper (x0 x1 : (⟨S32768x256, .f32⟩ : BufTy).Contents (Elt Ideal)) (i : S32768x256.Idx) (k : Fin 256) :
    val_main_v0 (F := Ideal) x0 x1 (lidx_main_v1 i (upper k)) = x0 (ix2 (i 0) k) := by
  unfold val_main_v0
  refine concatenate_pair_apply_left (t := S32768x512) 1 x0 x1 _ (lidx_main_v1 i (upper k)) rfl (ix2 (i 0) k) ?_
  intro b
  match b with
  | ⟨0, _⟩ => rfl
  | ⟨1, _⟩ => rfl

/-- In its last 256 columns a joined row holds the row of `x₂`, column `256 + k` of the one being column `k` of the
    other. -/
theorem joined_lower (x0 x1 : (⟨S32768x256, .f32⟩ : BufTy).Contents (Elt Ideal)) (i : S32768x256.Idx) (k : Fin 256) :
    val_main_v0 (F := Ideal) x0 x1 (lidx_main_v1 i (lower k)) = x1 (ix2 (i 0) k) := by
  unfold val_main_v0
  refine concatenate_pair_apply_right (t := S32768x512) 1 x0 x1 _ (lidx_main_v1 i (lower k)) rfl rfl (ix2 (i 0) k) ?_ ?_
  · intro b hb
    match b, hb with
    | ⟨0, _⟩, _ => rfl
    | ⟨1, _⟩, hb => exact absurd rfl hb
  · show k.val + 256 = 256 + k.val
    omega

/-- The reference's result, entry by entry, is the projection: the contraction over the joined row split into its
    halves, each half read off its own operand, and the bias read at the column. -/
theorem reference_eq (x0 x1 : (⟨S32768x256, .f32⟩ : BufTy).Contents (Elt Ideal))
    (x2 : (⟨S512x256, .f32⟩ : BufTy).Contents (Elt Ideal)) (x3 : (⟨S256, .f32⟩ : BufTy).Contents (Elt Ideal)) :
    val_main_v4 (F := Ideal) x0 x1 x2 x3 = out x0 x1 x2 x3 := by
  funext i
  have weightsAt : ∀ k : Fin 512, ridx_main_v1 i k = ix2 k (i 1) := fun k => funext fun a => Fin.ext (by
    match a with
    | ⟨0, _⟩ => rfl
    | ⟨1, _⟩ => rfl)
  have biasAt : idx_main_v2 (idx_main_v3 i) = ix1 (i 1) := funext fun a => Fin.ext (by
    match a with
    | ⟨0, _⟩ => rfl)
  rw [val_main_v4_apply, val_main_v1_apply, val_main_v3_apply, val_main_v2_apply, sum_halves]
  simp only [joined_upper, joined_lower, weightsAt, biasAt]
  rfl

end Cert.JoinedRows

end
-- ==== Proof.BlockProduct.lean ====
/-
  What the kernel body computes for one block of 1024 rows, entry by entry.

  The body multiplies the block of `x₁` by the upper half of the weights and the block of `x₂` by the lower half, each
  product accumulated from zero, adds the two products and then the bias row repeated down the rows.  Over the
  extended reals a product of a `[1024, 256]` block with a `[256, 256]` matrix, accumulated from zero, is at row `p` and
  column `q` the sum over `k < 256` of `a[p, k] · w[k, q]`; the two same-shape casts around the weight operands are the
  identity; the repeated bias row reads its entry in column `q`.
-/
import proofs.«130457_g16767552323709_cont_7to1_568_2_alg».proof.Proof.Gen.KernelIdeal.Skeleton
import proofs.«130457_g16767552323709_cont_7to1_568_2_alg».proof.Proof.Projection
import Idealize.ShloMosaic.Lib.Pipeline.Value
import Idealize.ShloMosaic.Lib.ValueIdx
import Idealize.ShloMosaic.Lib.ValueLayout
import Idealize.ShloMosaic.PureOps.Ideal.Laws

noncomputable section

namespace Cert.BlockProduct

open Cert.KernelIdeal Cert.KernelIdeal.Gen Cert.Projection
open Idealize.ShloMosaic Idealize.ShloMosaic.ValueIdx

/-- A block product accumulated from zero, at row `p` and column `q`: the sum over the 256 contracted positions of
    the left operand's row entry times the right operand's column entry. -/
theorem product_apply (a : FVec Ideal S1024x256 .f32) (w : FVec Ideal S256x256 .f32) (p : Fin 1024) (q : Fin 256) :
    matmul dot_S1024x256_S256x256_S1024x256_1_0_0_1_n_n none a w (constant (F := Ideal) S1024x256 .f32 0x00000000#32) (ix2 p q)
      = ∑ k : Fin 256, a (ix2 p k) * w (ix2 k q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have leftAt : dot_S1024x256_S256x256_S1024x256_1_0_0_1_n_n.lhsIdx (ix2 p q) ((contrEquiv1 dot_S1024x256_S256x256_S1024x256_1_0_0_1_n_n 256 rfl rfl).symm k) = ix2 p k :=
    funext fun ax => Fin.ext (by
      match ax with
      | ⟨0, _⟩ =>
        show (dot_S1024x256_S256x256_S1024x256_1_0_0_1_n_n.lhsIdx (ix2 p q) _ 0).val = p.val
        unfold DotDims.lhsIdx
        rw [dif_neg (show ¬(0 : Fin S1024x256.rank) ∈ dot_S1024x256_S256x256_S1024x256_1_0_0_1_n_n.lhsBatch by decide),
          dif_pos (show (0 : Fin S1024x256.rank) ∈ dot_S1024x256_S256x256_S1024x256_1_0_0_1_n_n.lhsNonContracting by decide)]
        rfl
      | ⟨1, _⟩ => exact (dot_S1024x256_S256x256_S1024x256_1_0_0_1_n_n.lhsIdx_val_of_single rfl (ix2 p q) _).trans hk)
  have rightAt : dot_S1024x256_S256x256_S1024x256_1_0_0_1_n_n.rhsIdx (ix2 p q) ((contrEquiv1 dot_S1024x256_S256x256_S1024x256_1_0_0_1_n_n 256 rfl rfl).symm k) = ix2 k q :=
    funext fun ax => Fin.ext (by
      match ax with
      | ⟨0, _⟩ => exact (dot_S1024x256_S256x256_S1024x256_1_0_0_1_n_n.rhsIdx_val_of_single rfl (ix2 p q) _).trans hk
      | ⟨1, _⟩ =>
        show (dot_S1024x256_S256x256_S1024x256_1_0_0_1_n_n.rhsIdx (ix2 p q) _ 1).val = q.val
        unfold DotDims.rhsIdx
        rw [dif_neg (show ¬(1 : Fin S256x256.rank) ∈ dot_S1024x256_S256x256_S1024x256_1_0_0_1_n_n.rhsBatch by decide),
          dif_pos (show (1 : Fin S256x256.rank) ∈ dot_S1024x256_S256x256_S1024x256_1_0_0_1_n_n.rhsNonContracting by decide)]
        rfl)
  rw [leftAt, rightAt]

/-- The body's stored value at row `p` and column `q` of the block: the two products' entries added, plus the bias
    entry of column `q`. -/
theorem body_apply (v0 v4 : Vec Ideal S1024x256 .f32) (v1 v5 : Vec Ideal S256x256 .f32) (v9 : Vec Ideal S1x256 .f32)
    (p : Fin 1024) (q : Fin 256) :
    k0_pay1 (F := Ideal) v0 v1 v4 v5 v9 (ix2 p q)
      = ((∑ k : Fin 256, v0 (ix2 p k) * v1 (ix2 k q)) + ∑ k : Fin 256, v4 (ix2 p k) * v5 (ix2 k q))
        + v9 (ix2 (0 : Fin 1) q) := by
  unfold k0_pay1
  simp only [shapeCast_self]
  rw [addf_apply, addf_apply, product_apply, product_apply, broadcastTo_1b_ab_apply]

/-- When the loaded blocks hold, along row `j 0` and column `j 1` of the block, the entries of the whole arrays along
    row `i 0` and column `i 1` — the block of `x₁` and of `x₂` their rows, the two weight blocks the upper and the lower
    half of the weights' columns, the bias block the bias — the body's value at `j` is the projection at `i`. -/
theorem block_entry (X1 X2 : S32768x256.Idx → EReal) (W : S512x256.Idx → EReal) (B : S256.Idx → EReal)
    (v0 v4 : Vec Ideal S1024x256 .f32) (v1 v5 : Vec Ideal S256x256 .f32) (v9 : Vec Ideal S1x256 .f32)
    (i : S32768x256.Idx) (j : S1024x256.Idx)
    (h0 : ∀ k : Fin 256, v0 (ix2 (j 0) k) = X1 (ix2 (i 0) k))
    (h4 : ∀ k : Fin 256, v4 (ix2 (j 0) k) = X2 (ix2 (i 0) k))
    (h1 : ∀ k : Fin 256, v1 (ix2 k (j 1)) = W (ix2 (upper k) (i 1)))
    (h5 : ∀ k : Fin 256, v5 (ix2 k (j 1)) = W (ix2 (lower k) (i 1)))
    (h9 : v9 (ix2 (0 : Fin 1) (j 1)) = B (ix1 (i 1))) :
    k0_pay1 (F := Ideal) v0 v1 v4 v5 v9 j = out X1 X2 W B i := by
  obtain ⟨p, q, rfl⟩ : ∃ (p : Fin 1024) (q : Fin 256), j = ix2 p q := ⟨j 0, j 1, eq_ix2 j⟩
  have r0 : ∀ k : Fin 256, v0 (ix2 p k) = X1 (ix2 (i 0) k) := h0
  have r4 : ∀ k : Fin 256, v4 (ix2 p k) = X2 (ix2 (i 0) k) := h4
  have r1 : ∀ k : Fin 256, v1 (ix2 k q) = W (ix2 (upper k) (i 1)) := h1
  have r5 : ∀ k : Fin 256, v5 (ix2 k q) = W (ix2 (lower k) (i 1)) := h5
  have r9 : v9 (ix2 (0 : Fin 1) q) = B (ix1 (i 1)) := h9
  rw [body_apply]
  simp only [r0, r4, r1, r5, r9]
  rfl

end Cert.BlockProduct

end
-- ==== Proof.RowBlocks.lean ====
/-
  From the 32 row blocks to the whole result.

  The grid has 32 points; point `t` takes rows `1024 t … 1024 t + 1023` of `x₁` and of `x₂`, the whole upper and lower
  halves of the weights and the bias as one row, and writes back rows `1024 t … 1024 t + 1023` of the result.  The upper
  half of the weights is rows `0 … 255` and the lower half rows `256 … 511` of `W`, cut out before the grid starts; the
  bias row is `b` with a leading axis of extent one.  So what point `t` writes back is block `t` of the projection
  `Projection.out` of the four argument arrays, and since every row `r` lies in the block of point `r / 1024`, the
  result array ends holding the projection everywhere.
-/
import proofs.«130457_g16767552323709_cont_7to1_568_2_alg».proof.Proof.Gen.KernelIdeal.Value
import proofs.«130457_g16767552323709_cont_7to1_568_2_alg».proof.Proof.BlockProduct
import proofs.«130457_g16767552323709_cont_7to1_568_2_alg».proof.Proof.Projection
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.RowBlocks

open Cert.KernelIdeal Cert.KernelIdeal.Gen Cert.Projection Cert.BlockProduct
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body loads and stores whole blocks: every rectangle starts at the origin. -/
theorem origin : (![0, 0] : Fin 2 → Nat) = fun _ => 0 := funext fun a => by fin_cases a <;> rfl

/-! ## The arrays cut and re-laid before the grid starts -/

/-- The upper half of the weights, as the grid finds it: its entry at `y` is the entry of `W` in the same row and
    column. -/
theorem upperHalf_at (c : Dev nD) (y : S256x256.Idx) (z : S512x256.Idx)
    (h0 : (z 0).val = (y 0).val) (h1 : (z 1).val = (y 1).val) :
    (V m c main_v0 : S256x256.Idx → EReal) y = (m ((c : Thread nD τ).loc main_arg2)) z := by
  have e : (V m c main_v0 : S256x256.Idx → EReal)
      = extractStridedSlice S256x256 ![0, 0] (m ((c : Thread nD τ).loc main_arg2)) slices_S512x256_S256x256_0_0 := by
    dsimp only [V, hostOps0]; after_results
  rw [e]
  refine extractStridedSlice_apply _ _ _ y z fun a => ?_
  match a with
  | ⟨0, _⟩ => exact h0.trans (Nat.zero_add _).symm
  | ⟨1, _⟩ => exact h1.trans (Nat.zero_add _).symm

/-- The lower half of the weights, as the grid finds it: its entry at `y` is the entry of `W` 256 rows further down,
    in the same column. -/
theorem lowerHalf_at (c : Dev nD) (y : S256x256.Idx) (z : S512x256.Idx)
    (h0 : (z 0).val = 256 + (y 0).val) (h1 : (z 1).val = (y 1).val) :
    (V m c main_v1 : S256x256.Idx → EReal) y = (m ((c : Thread nD τ).loc main_arg2)) z := by
  have e : (V m c main_v1 : S256x256.Idx → EReal)
      = extractStridedSlice S256x256 ![256, 0] (m ((c : Thread nD τ).loc main_arg2)) slices_S512x256_S256x256_256_0 := by
    dsimp only [V, hostOps0]; after_results
  rw [e]
  refine extractStridedSlice_apply _ _ _ y z fun a => ?_
  match a with
  | ⟨0, _⟩ => exact h0
  | ⟨1, _⟩ => exact h1.trans (Nat.zero_add _).symm

/-- The bias as one row, as the grid finds it: its entry in column `y 1` is the entry of `b` at that position. -/
theorem biasRow_at (c : Dev nD) (y : S1x256.Idx) (z : S256.Idx) (h : (z 0).val = (y 1).val) :
    (V m c main_v2 : S1x256.Idx → EReal) y = (m ((c : Thread nD τ).loc main_arg3)) z := by
  have e : (V m c main_v2 : S1x256.Idx → EReal) = shapeCast S1x256 (m ((c : Thread nD τ).loc main_arg3)) shapeCasts_S256_S1x256 := by
    dsimp only [V, hostOps0]; after_results; rfl
  rw [e]
  refine (shapeCast_addUnit_apply ![256] _ _ y).trans (congrArg _ (funext fun a => Fin.ext ?_))
  match a with
  | ⟨0, _⟩ => exact h.symm

/-! ## Which block each window holds at a point -/

/-- The printed index maps over the 32 points: the blocks of `x₁`, `x₂` and of the result are block `t` along the rows,
    and the two weight halves and the bias row are the same single block at every point. -/
theorem block_indices : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## What a point writes back -/

/-- Point `t` writes back block `t` of the projection of the argument arrays. -/
theorem flushed_eq (c : Dev nD) (t : Fin cfg0.N) :
    (dats m 0 c).flushed 5 t = ((cfg0.win 5).blk t).view.read (Elt Ideal) (out (m ((c : Thread nD τ).loc main_arg0)) (m ((c : Thread nD τ).loc main_arg1)) (m ((c : Thread nD τ).loc main_arg2)) (m ((c : Thread nD τ).loc main_arg3))) := by
  rw [Cert.KernelIdeal.Value.flushed5]
  unfold out0_5
  rw [View.canon_unit_zero origin]
  simp only [View.ld_unit_zero (S := S1024x256) origin, View.ld_unit_zero (S := S256x256) origin,
    View.ld_unit_zero (S := S1x256) origin]
  obtain ⟨a0, a1, b0, b1, u0, u1, l0, l1, s0, s1, o0, o1⟩ := block_indices t
  funext j
  show k0_pay1 (F := Ideal) (iblk m c 0 t) (iblk m c 2 t) (iblk m c 1 t) (iblk m c 3 t) (iblk m c 4 t) j
    = out (m ((c : Thread nD τ).loc main_arg0)) (m ((c : Thread nD τ).loc main_arg1)) (m ((c : Thread nD τ).loc main_arg2)) (m ((c : Thread nD τ).loc main_arg3)) (((cfg0.win 5).blk t).view.emb j)
  refine block_entry (m ((c : Thread nD τ).loc main_arg0)) (m ((c : Thread nD τ).loc main_arg1)) (m ((c : Thread nD τ).loc main_arg2)) (m ((c : Thread nD τ).loc main_arg3)) (iblk m c 0 t) (iblk m c 1 t) (iblk m c 2 t) (iblk m c 3 t) (iblk m c 4 t)
    (((cfg0.win 5).blk t).view.emb j) j ?_ ?_ ?_ ?_ ?_
  · intro k
    show V m c main_arg0 (((cfg0.win 0).blk t).view.emb (ix2 (j 0) k)) = _
    rw [V_main_arg0]
    refine congrArg _ (funext fun a => Fin.ext ?_)
    match a with
    | ⟨0, _⟩ =>
      show win0_0.index t (0 : Fin 2) * 1024 + 1 * (j 0).val = win0_5.index t (0 : Fin 2) * 1024 + 1 * (j 0).val
      omega
    | ⟨1, _⟩ =>
      show win0_0.index t (1 : Fin 2) * 256 + 1 * k.val = k.val
      omega
  · intro k
    show V m c main_arg1 (((cfg0.win 1).blk t).view.emb (ix2 (j 0) k)) = _
    rw [V_main_arg1]
    refine congrArg _ (funext fun a => Fin.ext ?_)
    match a with
    | ⟨0, _⟩ =>
      show win0_1.index t (0 : Fin 2) * 1024 + 1 * (j 0).val = win0_5.index t (0 : Fin 2) * 1024 + 1 * (j 0).val
      omega
    | ⟨1, _⟩ =>
      show win0_1.index t (1 : Fin 2) * 256 + 1 * k.val = k.val
      omega
  · intro k
    show V m c main_v0 (((cfg0.win 2).blk t).view.emb (ix2 (n0 := 256) (n1 := 256) k (j 1))) = _
    refine upperHalf_at m c _ _ ?_ ?_
    · show k.val = win0_2.index t (0 : Fin 2) * 256 + 1 * k.val
      omega
    · show win0_5.index t (1 : Fin 2) * 256 + 1 * (j 1).val = win0_2.index t (1 : Fin 2) * 256 + 1 * (j 1).val
      omega
  · intro k
    show V m c main_v1 (((cfg0.win 3).blk t).view.emb (ix2 (n0 := 256) (n1 := 256) k (j 1))) = _
    refine lowerHalf_at m c _ _ ?_ ?_
    · show 256 + k.val = 256 + (win0_3.index t (0 : Fin 2) * 256 + 1 * k.val)
      omega
    · show win0_5.index t (1 : Fin 2) * 256 + 1 * (j 1).val = win0_3.index t (1 : Fin 2) * 256 + 1 * (j 1).val
      omega
  · show V m c main_v2 (((cfg0.win 4).blk t).view.emb (ix2 (n0 := 1) (n1 := 256) 0 (j 1))) = _
    refine biasRow_at m c _ _ ?_
    show win0_5.index t (1 : Fin 2) * 256 + 1 * (j 1).val = win0_4.index t (1 : Fin 2) * 256 + 1 * (j 1).val
    omega

/-! ## The blocks fill the result -/

/-- An entry of the result lies in point `t`'s block iff each of its coordinates lies in the block's range. -/
theorem mem_block (t : Fin cfg0.N) (i : S32768x256.Idx) :
    i ∈ ((cfg0.win 5).blk t).view.set ↔ ∀ a : Fin 2, win0_5.index t a * S1024x256.size a ≤ (i a).val
      ∧ (i a).val < win0_5.index t a * S1024x256.size a + S1024x256.size a := by
  show i ∈ ((View.whole main_v3).slice (win0_5.rect t)).set ↔ _
  rw [View.set_slice_whole, Rect.mem_set_unit]
  exact Iff.rfl

/-- Every entry of the result is written back by some point: row `r` by point `r / 1024`. -/
theorem covered (i : S32768x256.Idx) :
    ∃ t : Fin cfg0.N, (cfg0.win 5).flush t = true ∧ i ∈ ((cfg0.win 5).blk t).view.set := by
  have hr : (i 0).val < 32768 := (i 0).isLt
  have hq : (i 1).val < 256 := (i 1).isLt
  have hN : (i 0).val / 1024 < cfg0.N := by
    show (i 0).val / 1024 < grid0.N
    rw [N_0]
    omega
  refine ⟨⟨(i 0).val / 1024, hN⟩, flush0_5 _, ?_⟩
  obtain ⟨-, -, -, -, -, -, -, -, -, -, o0, o1⟩ := block_indices ⟨(i 0).val / 1024, hN⟩
  have o0' : win0_5.index ⟨(i 0).val / 1024, hN⟩ (0 : Fin 2) = (i 0).val / 1024 := o0
  rw [mem_block]
  intro a
  match a with
  | ⟨0, _⟩ =>
    show win0_5.index ⟨(i 0).val / 1024, hN⟩ (0 : Fin 2) * 1024 ≤ (i 0).val
      ∧ (i 0).val < win0_5.index ⟨(i 0).val / 1024, hN⟩ (0 : Fin 2) * 1024 + 1024
    omega
  | ⟨1, _⟩ =>
    show win0_5.index ⟨(i 0).val / 1024, hN⟩ (1 : Fin 2) * 256 ≤ (i 1).val
      ∧ (i 1).val < win0_5.index ⟨(i 0).val / 1024, hN⟩ (1 : Fin 2) * 256 + 256
    omega

/-- After the grid the result array holds the projection of the argument arrays. -/
theorem result_eq (c : Dev nD) :
    (dats m 0 c).arrAt 5 cfg0.N = out (m ((c : Thread nD τ).loc main_arg0)) (m ((c : Thread nD τ).loc main_arg1)) (m ((c : Thread nD τ).loc main_arg2)) (m ((c : Thread nD τ).loc main_arg3)) :=
  (dats m 0 c).arrAt_eq_of_cover 5 (out (m ((c : Thread nD τ).loc main_arg0)) (m ((c : Thread nD τ).loc main_arg1)) (m ((c : Thread nD τ).loc main_arg2)) (m ((c : Thread nD τ).loc main_arg3))) (fun t _ => flushed_eq m c t) covered

/-! ## The run -/

/-- Every weakly fair execution of the kernel's program terminates with the result at the projection of the
    arguments and the arguments unchanged. -/
theorem run : θ_run defs (onTc (τ := τ) (main (F := Ideal))) ⟨m, fun _ => 0, ρ⟩ fun r => ∀ c : Dev nD,
      r.2.mem ((c : Thread nD τ).loc main_v3) = out (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_eq m c), (h c).2⟩)
    (Cert.KernelIdeal.Value.run_blocks m ρ)

end Cert.RowBlocks

end
-- ==== Proof.lean ====
/-
  The kernel and its reference compute one function over the extended reals.

  Reference: join the rows of `x₁` and `x₂ : [32768, 256]` into rows of 512 entries, multiply by `W : [512, 256]`, add the
  bias `b : [256]` along every row.  Kernel: over 32 blocks of 1024 rows, multiply the block of `x₁` by the upper half of
  `W` and the block of `x₂` by the lower half, add the two products, add the bias row.

  Entry `[r, c]` of both is

      (∑_{k < 256} x₁[r, k] · W[k, c]  +  ∑_{k < 256} x₂[r, k] · W[256 + k, c])  +  b[c]

  (`Projection.out`): for the reference because a sum over the 512 entries of a joined row is the sum over its first 256
  entries, which are `x₁`'s, plus the sum over its last 256, which are `x₂`'s (`JoinedRows.reference_eq`); for the kernel
  because point `t` of the grid writes back rows `1024 t … 1024 t + 1023` of exactly that, and the 32 blocks fill the
  result (`RowBlocks.run`).  Splitting a finite sum uses only commutativity and associativity of addition, which hold
  with infinite terms as well, so the precondition that the inputs are finite is never opened.

  The idealized kernel is the printed kernel read over the extended reals with no operation rewritten, so there is
  nothing to preserve; the three programs' runs terminate without a fault and leave their arguments as they were.
-/
import proofs.«130457_g16767552323709_cont_7to1_568_2_alg».proof.Defs
import proofs.«130457_g16767552323709_cont_7to1_568_2_alg».proof.Proof.Gen.Kernel
import proofs.«130457_g16767552323709_cont_7to1_568_2_alg».proof.Proof.Gen.Kernel.Skeleton
import proofs.«130457_g16767552323709_cont_7to1_568_2_alg».proof.Proof.Gen.Kernel.Launch
import proofs.«130457_g16767552323709_cont_7to1_568_2_alg».proof.Proof.Gen.Kernel.Points
import proofs.«130457_g16767552323709_cont_7to1_568_2_alg».proof.Proof.Gen.Kernel.Frame
import proofs.«130457_g16767552323709_cont_7to1_568_2_alg».proof.Proof.Gen.KernelIdeal
import proofs.«130457_g16767552323709_cont_7to1_568_2_alg».proof.Proof.Gen.KernelIdeal.Skeleton
import proofs.«130457_g16767552323709_cont_7to1_568_2_alg».proof.Proof.Gen.KernelIdeal.Launch
import proofs.«130457_g16767552323709_cont_7to1_568_2_alg».proof.Proof.Gen.KernelIdeal.Points
import proofs.«130457_g16767552323709_cont_7to1_568_2_alg».proof.Proof.Gen.KernelIdeal.Frame
import proofs.«130457_g16767552323709_cont_7to1_568_2_alg».proof.Proof.Gen.ReferenceIdeal
import proofs.«130457_g16767552323709_cont_7to1_568_2_alg».proof.Proof.Gen.Pre_finite_inputs
import proofs.«130457_g16767552323709_cont_7to1_568_2_alg».proof.Proof.Gen.KernelIdeal.Value
import proofs.«130457_g16767552323709_cont_7to1_568_2_alg».proof.Proof.Gen.ReferenceIdeal.Run
import proofs.«130457_g16767552323709_cont_7to1_568_2_alg».proof.Proof.Gen.ReferenceIdeal.Read
import proofs.«130457_g16767552323709_cont_7to1_568_2_alg».proof.Proof.Projection
import proofs.«130457_g16767552323709_cont_7to1_568_2_alg».proof.Proof.JoinedRows
import proofs.«130457_g16767552323709_cont_7to1_568_2_alg».proof.Proof.BlockProduct
import proofs.«130457_g16767552323709_cont_7to1_568_2_alg».proof.Proof.RowBlocks
import Idealize.ShloMosaic.Adequacy
import Idealize.ShloMosaic.Init

noncomputable section

namespace Cert.Proof

open Idealize.ShloMosaic Idealize.SL.Sem

/-- The printed kernel runs to the end and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the statement about its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on the arguments both programs end with the projection of the arguments in their
    result: the kernel block by block, the reference through the split of its contraction. -/
theorem algebraic : Cert.algebraic_KernelIdeal_ReferenceIdeal := by
  intro m ρ m' ρ' _ hagree
  refine ⟨_, Cert.RowBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.JoinedRows.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
